-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S64x784x1 : Shape := ⟨3, ![64, 784, 1]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S64x784x1 : S_.BroadcastsInDim S64x784x1 (![] : Fin 0 → Fin S64x784x1.rank)
  reducesTo_S64x784x1_S_d0_1_2 : S64x784x1.ReducesTo [0, 1, 2] S_

variable [Facts]

def fn {F : FTy → Type} [FloatOps F] (main_arg0 : FVec F S64x512x28x28 .f32) (main_arg1 : FVec F S64x784x1 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S64x784x1 .f32 := Host.absf main_arg1
  let main_cst_0 : FVec F S_ .f32 := constant S_ .f32 0x7F800000#32
  let main_v5 : FVec F S64x784x1 .f32 := broadcastInDim S64x784x1 ![] bcast_S_S64x784x1 main_cst_0
  let main_v6 : IVec S64x784x1 1 := cmpf .olt main_v4 main_v5
  let main_c_1 : IVec S_ 1 := constantI S_ 1 1#1
  let main_v7 : IVec S_ 1 := (fun x v => Host.reduce IntOp.andi x v reducesTo_S64x784x1_S_d0_1_2 h_S_) main_v6 main_c_1
  let main_v8 : IVec S_ 1 := andi main_v3 main_v7
  main_v8
-- ==== Kernel.lean ====
abbrev S64x512x28x28 : Shape := ⟨4, ![64, 512, 28, 28]⟩
abbrev S64x784x1 : Shape := ⟨3, ![64, 784, 1]⟩
abbrev S64x512x784 : Shape := ⟨3, ![64, 512, 784]⟩
abbrev S4x512x784 : Shape := ⟨3, ![4, 512, 784]⟩
abbrev S4x784x1 : Shape := ⟨3, ![4, 784, 1]⟩
abbrev S4x512x1 : Shape := ⟨3, ![4, 512, 1]⟩
abbrev S4x1 : Shape := ⟨2, ![4, 1]⟩
abbrev S4x1x1 : Shape := ⟨3, ![4, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S64x784x1, .f32⟩
  | .hbm, ⟨2, _⟩ => ⟨S64x512x784, .f32⟩
  | .hbm, ⟨3, _⟩ => ⟨S64x512x784, .f32⟩
  | .local _ .vmem, ⟨0, _⟩ => ⟨S4x512x784, .f32⟩
  | .local _ .vmem, ⟨1, _⟩ => ⟨S4x512x784, .f32⟩
  | .local _ .vmem, ⟨2, _⟩ => ⟨S4x784x1, .f32⟩
  | .local _ .vmem, ⟨3, _⟩ => ⟨S4x784x1, .f32⟩
  | .local _ .vmem, ⟨4, _⟩ => ⟨S4x512x784, .f32⟩
  | .local _ .vmem, ⟨5, _⟩ => ⟨S4x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x784x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x512x28x28_S64x512x784 : S64x512x28x28.ShapeCasts S64x512x784
  inb_S4x512x784_S4x512x784_0_0_0 : ∀ a, (![0, 0, 0] : Fin 3 → Nat) a + S4x512x784.size a ≤ S4x512x784.size a
  h_S4x512x784 : 0 < S4x512x784.numel
  shapeCasts_S4x512x784_S4x512x784 : S4x512x784.ShapeCasts S4x512x784
  inb_S4x784x1_S4x784x1_0_0_0 : ∀ a, (![0, 0, 0] : Fin 3 → Nat) a + S4x784x1.size a ≤ S4x784x1.size a
  h_S4x784x1 : 0 < S4x784x1.numel
  reduces_S4x784x1_S4x1 : S4x784x1.Reduces [1] S4x1
  shapeCasts_S4x1_S4x1x1 : S4x1.ShapeCasts S4x1x1
  broadcasts_S4x1x1_S4x784x1 : S4x1x1.Broadcasts S4x784x1
  dot_S4x512x784_S4x784x1_S4x512x1_2_1_1_2_0_0_wf : DotDims.WF S4x512x784 S4x784x1 S4x512x1 [2] [1] [1] [2] [0] [0]
  dot_S4x512x784_S4x512x1_S4x784x1_1_1_2_2_0_0_wf : DotDims.WF S4x512x784 S4x512x1 S4x784x1 [1] [1] [2] [2] [0] [0]
  dot_S4x512x1_S4x784x1_S4x512x784_2_2_1_1_0_0_wf : DotDims.WF S4x512x1 S4x784x1 S4x512x784 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x784.size a ≤ S64x512x784.size a
  hwx0_0 : ∀ i : grid0.Coords, EltTy.bits .f32 = 32 ∨ (Rect.block (s := S64x512x784) S4x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x784x1.size a ≤ S64x784x1.size a
  hwx0_1 : ∀ i : grid0.Coords, EltTy.bits .f32 = 32 ∨ (Rect.block (s := S64x784x1) S4x784x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x784.size a ≤ S64x512x784.size a
  hwx0_2 : ∀ i : grid0.Coords, EltTy.bits .f32 = 32 ∨ (Rect.block (s := S64x512x784) S4x512x784.size (cc0_transform_2 i) (hinb0_2 i)).WholeWords (EltTy.packing .f32)

variable [Facts₀]

def dot_S4x512x784_S4x784x1_S4x512x1_2_1_1_2_0_0 : DotDims S4x512x784 S4x784x1 S4x512x1 where
  lhsContracting := [2]
  rhsContracting := [1]
  lhsNonContracting := [1]
  rhsNonContracting := [2]
  lhsBatch := [0]
  rhsBatch := [0]
  wf := dot_S4x512x784_S4x784x1_S4x512x1_2_1_1_2_0_0_wf
def dot_S4x512x784_S4x512x1_S4x784x1_1_1_2_2_0_0 : DotDims S4x512x784 S4x512x1 S4x784x1 where
  lhsContracting := [1]
  rhsContracting := [1]
  lhsNonContracting := [2]
  rhsNonContracting := [2]
  lhsBatch := [0]
  rhsBatch := [0]
  wf := dot_S4x512x784_S4x512x1_S4x784x1_1_1_2_2_0_0_wf
def dot_S4x512x1_S4x784x1_S4x512x784_2_2_1_1_0_0 : DotDims S4x512x1 S4x784x1 S4x512x784 where
  lhsContracting := [2]
  rhsContracting := [2]
  lhsNonContracting := [1]
  rhsNonContracting := [1]
  lhsBatch := [0]
  rhsBatch := [0]
  wf := dot_S4x512x1_S4x784x1_S4x512x784_2_2_1_1_0_0_wf

abbrev win0_0 : Pipeline.Window sig grid0 :=
  Pipeline.Window.ofSpec (Memref.whole main_v0) S4x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x784x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x512x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S64x784x1 : Shape := ⟨3, ![64, 784, 1]⟩
abbrev S64x512x784 : Shape := ⟨3, ![64, 512, 784]⟩
abbrev S64x512x1 : Shape := ⟨3, ![64, 512, 1]⟩
abbrev S_ : Shape := ⟨0, ![]⟩
abbrev S64x1 : Shape := ⟨2, ![64, 1]⟩
abbrev S64x1x1 : Shape := ⟨3, ![64, 1, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x512x28x28, .f32⟩
  | .hbm, ⟨1, _⟩ => ⟨S64x784x1, .f32⟩
  | .hbm, ⟨2, _⟩ => ⟨S64x512x784, .f32⟩
  | .hbm, ⟨3, _⟩ => ⟨S64x512x1, .f32⟩
  | .hbm, ⟨4, _⟩ => ⟨S64x784x1, .f32⟩
  | .hbm, ⟨5, _⟩ => ⟨S64x512x1, .f32⟩
  | .hbm, ⟨6, _⟩ => ⟨S64x784x1, .f32⟩
  | .hbm, ⟨7, _⟩ => ⟨S64x784x1, .f32⟩
  | .hbm, ⟨8, _⟩ => ⟨S_, .f32⟩
  | .hbm, ⟨9, _⟩ => ⟨S64x1, .f32⟩
  | .hbm, ⟨10, _⟩ => ⟨S64x1x1, .f32⟩
  | .hbm, ⟨11, _⟩ => ⟨S_, .f32⟩
  | .hbm, ⟨12, _⟩ => ⟨S64x1x1, .f32⟩
  | .hbm, ⟨13, _⟩ => ⟨S64x1x1, .f32⟩
  | .hbm, ⟨14, _⟩ => ⟨S64x1x1, .f32⟩
  | .hbm, ⟨15, _⟩ => ⟨S64x784x1, .f32⟩
  | .hbm, ⟨16, _⟩ => ⟨S64x784x1, .f32⟩
  | .hbm, ⟨17, _⟩ => ⟨S64x512x1, .f32⟩
  | .hbm, ⟨18, _⟩ => ⟨S64x512x784, .f32⟩
  | .hbm, ⟨19, _⟩ => ⟨S_, .f32⟩
  | .hbm, ⟨20, _⟩ => ⟨S64x512x784, .f32⟩
  | .hbm, ⟨21, _⟩ => ⟨S64x512x784, .f32⟩
  | .hbm, ⟨22, _⟩ => ⟨S64x512x784, .f32⟩
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S64x512x28x28_S64x512x784 : S64x512x28x28.ShapeCasts S64x512x784
  reducesTo_S64x784x1_S64x1_d1 : S64x784x1.ReducesTo [1] S64x1
  h_S_ : 0 < S_.numel
  bcast_S64x1_S64x1x1_0_2 : S64x1.BroadcastsInDim S64x1x1 (![0, 2] : Fin 2 → Fin S64x1x1.rank)
  bcast_S_S64x1x1 : S_.BroadcastsInDim S64x1x1 (![] : Fin 0 → Fin S64x1x1.rank)
  bcast_S64x1x1_S64x784x1_0_1_2 : S64x1x1.BroadcastsInDim S64x784x1 (![0, 1, 2] : Fin 3 → Fin S64x784x1.rank)
  bcast_S_S64x512x784 : S_.BroadcastsInDim S64x512x784 (![] : Fin 0 → Fin S64x512x784.rank)
  dot_S64x512x784_S64x784x1_S64x512x1_2_1_1_2_0_0_wf : DotDims.WF S64x512x784 S64x784x1 S64x512x1 [2] [1] [1] [2] [0] [0]
  dot_S64x512x784_S64x512x1_S64x784x1_1_1_2_2_0_0_wf : DotDims.WF S64x512x784 S64x512x1 S64x784x1 [1] [1] [2] [2] [0] [0]
  dot_S64x512x1_S64x784x1_S64x512x784_2_2_1_1_0_0_wf : DotDims.WF S64x512x1 S64x784x1 S64x512x784 [2] [2] [1] [1] [0] [0]

variable [Facts₀]

def dot_S64x512x784_S64x784x1_S64x512x1_2_1_1_2_0_0 : DotDims S64x512x784 S64x784x1 S64x512x1 where
  lhsContracting := [2]
  rhsContracting := [1]
  lhsNonContracting := [1]
  rhsNonContracting := [2]
  lhsBatch := [0]
  rhsBatch := [0]
  wf := dot_S64x512x784_S64x784x1_S64x512x1_2_1_1_2_0_0_wf
def dot_S64x512x784_S64x512x1_S64x784x1_1_1_2_2_0_0 : DotDims S64x512x784 S64x512x1 S64x784x1 where
  lhsContracting := [1]
  rhsContracting := [1]
  lhsNonContracting := [2]
  rhsNonContracting := [2]
  lhsBatch := [0]
  rhsBatch := [0]
  wf := dot_S64x512x784_S64x512x1_S64x784x1_1_1_2_2_0_0_wf
def dot_S64x512x1_S64x784x1_S64x512x784_2_2_1_1_0_0 : DotDims S64x512x1 S64x784x1 S64x512x784 where
  lhsContracting := [2]
  rhsContracting := [2]
  lhsNonContracting := [1]
  rhsNonContracting := [1]
  lhsBatch := [0]
  rhsBatch := [0]
  wf := dot_S64x512x1_S64x784x1_S64x512x784_2_2_1_1_0_0_wf

class Facts : Prop extends Facts₀ where

variable [Facts]
-- ==== Proof.Deflate.lean ====
/-
  One matrix of the batch, on the extended reals.

  For a 512 × 784 matrix `A` and a start vector `v` of length 784: two sweeps `v ↦ Aᵀ (A v)` give `w`;
  `w` is scaled to `ŵ = w / sqrt (∑ₖ wₖ² + ε)`; the left vector is `u = A ŵ`; and the outcome is
  `A - κ · u ŵᵀ`, entry `(c, n)` being `A c n - κ · (u c · ŵ n)`.
  `ε` and `κ` are float literals, kept as the words they are written with: every use of either is of the same
  word, so its value is never needed.

  A batch is a rank-3 array whose first coordinate picks the matrix; `batched` applies the above to each matrix
  with the start vector of the same first coordinate.
-/
import Idealize.ShloMosaic.PureOps.Ideal
import Idealize.ShloMosaic.Lib.ValueIdx

noncomputable section

namespace Cert.Deflate

open Idealize.ShloMosaic Idealize.ShloMosaic.ValueIdx

/-- `A v`: entry `c` is row `c` of `A` against `v`. -/
def apply (A : Fin 512 → Fin 784 → EReal) (v : Fin 784 → EReal) (c : Fin 512) : EReal :=
  ∑ n : Fin 784, A c n * v n

/-- `Aᵀ u`: entry `n` is column `n` of `A` against `u`. -/
def applyT (A : Fin 512 → Fin 784 → EReal) (u : Fin 512 → EReal) (n : Fin 784) : EReal :=
  ∑ c : Fin 512, A c n * u c

/-- One sweep, `v ↦ Aᵀ (A v)`. -/
def sweep (A : Fin 512 → Fin 784 → EReal) (v : Fin 784 → EReal) : Fin 784 → EReal :=
  applyT A (apply A v)

/-- The word added under the square root. -/
def eps : EReal := Ideal.ofBits .f32 0x3727C5AC#32

/-- The word the rank-one term is scaled by. -/
def kappa : EReal := Ideal.ofBits .f32 0x3F19999A#32

/-- `w / sqrt (∑ₖ wₖ² + ε)`, entry by entry. -/
def normalize (w : Fin 784 → EReal) (n : Fin 784) : EReal :=
  Ideal.div (w n) (Ideal.sqrt ((∑ k : Fin 784, w k * w k) + eps))

/-- The scaled outcome `ŵ` of two sweeps from `v`. -/
def direction (A : Fin 512 → Fin 784 → EReal) (v : Fin 784 → EReal) : Fin 784 → EReal :=
  normalize (sweep A (sweep A v))

/-- `A - κ · (A ŵ) ŵᵀ`. -/
def deflate (A : Fin 512 → Fin 784 → EReal) (v : Fin 784 → EReal) (c : Fin 512) (n : Fin 784) : EReal :=
  A c n - kappa * (apply A (direction A v) c * direction A v n)

/-! ## A batch of matrices and of vectors -/

variable {B : Nat}

/-- Matrix `b` of a batch. -/
def rows (X : (⟨3, ![B, 512, 784]⟩ : Shape).Idx → EReal) (b : Fin B) : Fin 512 → Fin 784 → EReal :=
  fun c n => X (ix3 b c n)

/-- Vector `b` of a batch of columns of length 784. -/
def col (w : (⟨3, ![B, 784, 1]⟩ : Shape).Idx → EReal) (b : Fin B) : Fin 784 → EReal :=
  fun n => w (ix3 b n 0)

/-- Vector `b` of a batch of columns of length 512. -/
def colC (u : (⟨3, ![B, 512, 1]⟩ : Shape).Idx → EReal) (b : Fin B) : Fin 512 → EReal :=
  fun c => u (ix3 b c 0)

/-- `deflate` on every matrix of the batch, each with its own start vector. -/
def batched (X : (⟨3, ![B, 512, 784]⟩ : Shape).Idx → EReal) (v : (⟨3, ![B, 784, 1]⟩ : Shape).Idx → EReal)
    (i : (⟨3, ![B, 512, 784]⟩ : Shape).Idx) : EReal :=
  deflate (rows X (i 0)) (col v (i 0)) (i 1) (i 2)

theorem batched_ix3 (X : (⟨3, ![B, 512, 784]⟩ : Shape).Idx → EReal) (v : (⟨3, ![B, 784, 1]⟩ : Shape).Idx → EReal)
    (b : Fin B) (c : Fin 512) (n : Fin 784) :
    batched X v (ix3 b c n) = deflate (rows X b) (col v b) c n := rfl

/-- Two batches, of possibly different lengths, give the same entry wherever the matrix, the start vector and the
    position inside the matrix agree. -/
theorem batched_congr {B' : Nat} (X : (⟨3, ![B, 512, 784]⟩ : Shape).Idx → EReal) (v : (⟨3, ![B, 784, 1]⟩ : Shape).Idx → EReal)
    (X' : (⟨3, ![B', 512, 784]⟩ : Shape).Idx → EReal) (v' : (⟨3, ![B', 784, 1]⟩ : Shape).Idx → EReal)
    (b : Fin B) (b' : Fin B') (c : Fin 512) (n : Fin 784)
    (hX : ∀ (c : Fin 512) (n : Fin 784), X (ix3 b c n) = X' (ix3 b' c n))
    (hv : ∀ n : Fin 784, v (ix3 b n 0) = v' (ix3 b' n 0)) :
    batched X v (ix3 b c n) = batched X' v' (ix3 b' c n) := by
  rw [batched_ix3, batched_ix3]
  have e1 : rows X b = rows X' b' := funext fun c => funext fun n => hX c n
  have e2 : col v b = col v' b' := funext fun n => hv n
  rw [e1, e2]

end Cert.Deflate

end
-- ==== Proof.KernelBlock.lean ====
/-
  The body's arithmetic on a block of four matrices.

  The body takes a block `X` of four 512 × 784 matrices and a block `w` of four start vectors. Each of its three kinds of
  matrix product keeps the first coordinate (the matrix's number inside the block) and contracts one axis, so at the
  extended reals it is, matrix by matrix: `A v` (contracting the 784 columns), `Aᵀ u` (contracting the 512 rows), and
  the rank-one product `u ŵᵀ` (contracting an axis of length one: a single term). The sum of squares runs over the 784
  entries of one vector and is put back on every entry of that vector before the division. So entry `(b, c, n)` of what
  the body stores is `deflate` of matrix `b` and start vector `b` of the block at `(c, n)`.
-/
import proofs.«181099_j27247272526218_1_alg».proof.Proof.Gen.KernelIdeal.Skeleton
import proofs.«181099_j27247272526218_1_alg».proof.Proof.Deflate
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.Deflate

/-! ## The operand indices of the three products, coordinate by coordinate -/

theorem mv_lhs_0 (i : S4x512x1.Idx) (q : dot_S4x512x784_S4x784x1_S4x512x1_2_1_1_2_0_0.contr.Idx) :
    (dot_S4x512x784_S4x784x1_S4x512x1_2_1_1_2_0_0.lhsIdx i q 0).val = (i 0).val := by
  unfold DotDims.lhsIdx
  rw [dif_pos (show (0 : Fin S4x512x784.rank) ∈ dot_S4x512x784_S4x784x1_S4x512x1_2_1_1_2_0_0.lhsBatch by decide)]
  rfl
theorem mv_lhs_1 (i : S4x512x1.Idx) (q : dot_S4x512x784_S4x784x1_S4x512x1_2_1_1_2_0_0.contr.Idx) :
    (dot_S4x512x784_S4x784x1_S4x512x1_2_1_1_2_0_0.lhsIdx i q 1).val = (i 1).val := by
  unfold DotDims.lhsIdx
  rw [dif_neg (show ¬(1 : Fin S4x512x784.rank) ∈ dot_S4x512x784_S4x784x1_S4x512x1_2_1_1_2_0_0.lhsBatch by decide), dif_pos (show (1 : Fin S4x512x784.rank) ∈ dot_S4x512x784_S4x784x1_S4x512x1_2_1_1_2_0_0.lhsNonContracting by decide)]
  rfl
theorem mv_lhs_2 (i : S4x512x1.Idx) (q : dot_S4x512x784_S4x784x1_S4x512x1_2_1_1_2_0_0.contr.Idx) :
    (dot_S4x512x784_S4x784x1_S4x512x1_2_1_1_2_0_0.lhsIdx i q 2).val = (q ⟨0, by decide⟩).val :=
  dot_S4x512x784_S4x784x1_S4x512x1_2_1_1_2_0_0.lhsIdx_val_of_single rfl i q
theorem mv_rhs_0 (i : S4x512x1.Idx) (q : dot_S4x512x784_S4x784x1_S4x512x1_2_1_1_2_0_0.contr.Idx) :
    (dot_S4x512x784_S4x784x1_S4x512x1_2_1_1_2_0_0.rhsIdx i q 0).val = (i 0).val := by
  unfold DotDims.rhsIdx
  rw [dif_pos (show (0 : Fin S4x784x1.rank) ∈ dot_S4x512x784_S4x784x1_S4x512x1_2_1_1_2_0_0.rhsBatch by decide)]
  rfl
theorem mv_rhs_1 (i : S4x512x1.Idx) (q : dot_S4x512x784_S4x784x1_S4x512x1_2_1_1_2_0_0.contr.Idx) :
    (dot_S4x512x784_S4x784x1_S4x512x1_2_1_1_2_0_0.rhsIdx i q 1).val = (q ⟨0, by decide⟩).val :=
  dot_S4x512x784_S4x784x1_S4x512x1_2_1_1_2_0_0.rhsIdx_val_of_single rfl i q
theorem mv_rhs_2 (i : S4x512x1.Idx) (q : dot_S4x512x784_S4x784x1_S4x512x1_2_1_1_2_0_0.contr.Idx) :
    (dot_S4x512x784_S4x784x1_S4x512x1_2_1_1_2_0_0.rhsIdx i q 2).val = (i 2).val := by
  unfold DotDims.rhsIdx
  rw [dif_neg (show ¬(2 : Fin S4x784x1.rank) ∈ dot_S4x512x784_S4x784x1_S4x512x1_2_1_1_2_0_0.rhsBatch by decide), dif_pos (show (2 : Fin S4x784x1.rank) ∈ dot_S4x512x784_S4x784x1_S4x512x1_2_1_1_2_0_0.rhsNonContracting by decide)]
  rfl
theorem mtv_lhs_0 (i : S4x784x1.Idx) (q : dot_S4x512x784_S4x512x1_S4x784x1_1_1_2_2_0_0.contr.Idx) :
    (dot_S4x512x784_S4x512x1_S4x784x1_1_1_2_2_0_0.lhsIdx i q 0).val = (i 0).val := by
  unfold DotDims.lhsIdx
  rw [dif_pos (show (0 : Fin S4x512x784.rank) ∈ dot_S4x512x784_S4x512x1_S4x784x1_1_1_2_2_0_0.lhsBatch by decide)]
  rfl
theorem mtv_lhs_1 (i : S4x784x1.Idx) (q : dot_S4x512x784_S4x512x1_S4x784x1_1_1_2_2_0_0.contr.Idx) :
    (dot_S4x512x784_S4x512x1_S4x784x1_1_1_2_2_0_0.lhsIdx i q 1).val = (q ⟨0, by decide⟩).val :=
  dot_S4x512x784_S4x512x1_S4x784x1_1_1_2_2_0_0.lhsIdx_val_of_single rfl i q
theorem mtv_lhs_2 (i : S4x784x1.Idx) (q : dot_S4x512x784_S4x512x1_S4x784x1_1_1_2_2_0_0.contr.Idx) :
    (dot_S4x512x784_S4x512x1_S4x784x1_1_1_2_2_0_0.lhsIdx i q 2).val = (i 1).val := by
  unfold DotDims.lhsIdx
  rw [dif_neg (show ¬(2 : Fin S4x512x784.rank) ∈ dot_S4x512x784_S4x512x1_S4x784x1_1_1_2_2_0_0.lhsBatch by decide), dif_pos (show (2 : Fin S4x512x784.rank) ∈ dot_S4x512x784_S4x512x1_S4x784x1_1_1_2_2_0_0.lhsNonContracting by decide)]
  rfl
theorem mtv_rhs_0 (i : S4x784x1.Idx) (q : dot_S4x512x784_S4x512x1_S4x784x1_1_1_2_2_0_0.contr.Idx) :
    (dot_S4x512x784_S4x512x1_S4x784x1_1_1_2_2_0_0.rhsIdx i q 0).val = (i 0).val := by
  unfold DotDims.rhsIdx
  rw [dif_pos (show (0 : Fin S4x512x1.rank) ∈ dot_S4x512x784_S4x512x1_S4x784x1_1_1_2_2_0_0.rhsBatch by decide)]
  rfl
theorem mtv_rhs_1 (i : S4x784x1.Idx) (q : dot_S4x512x784_S4x512x1_S4x784x1_1_1_2_2_0_0.contr.Idx) :
    (dot_S4x512x784_S4x512x1_S4x784x1_1_1_2_2_0_0.rhsIdx i q 1).val = (q ⟨0, by decide⟩).val :=
  dot_S4x512x784_S4x512x1_S4x784x1_1_1_2_2_0_0.rhsIdx_val_of_single rfl i q
theorem mtv_rhs_2 (i : S4x784x1.Idx) (q : dot_S4x512x784_S4x512x1_S4x784x1_1_1_2_2_0_0.contr.Idx) :
    (dot_S4x512x784_S4x512x1_S4x784x1_1_1_2_2_0_0.rhsIdx i q 2).val = (i 2).val := by
  unfold DotDims.rhsIdx
  rw [dif_neg (show ¬(2 : Fin S4x512x1.rank) ∈ dot_S4x512x784_S4x512x1_S4x784x1_1_1_2_2_0_0.rhsBatch by decide), dif_pos (show (2 : Fin S4x512x1.rank) ∈ dot_S4x512x784_S4x512x1_S4x784x1_1_1_2_2_0_0.rhsNonContracting by decide)]
  rfl
theorem outer_lhs_0 (i : S4x512x784.Idx) (q : dot_S4x512x1_S4x784x1_S4x512x784_2_2_1_1_0_0.contr.Idx) :
    (dot_S4x512x1_S4x784x1_S4x512x784_2_2_1_1_0_0.lhsIdx i q 0).val = (i 0).val := by
  unfold DotDims.lhsIdx
  rw [dif_pos (show (0 : Fin S4x512x1.rank) ∈ dot_S4x512x1_S4x784x1_S4x512x784_2_2_1_1_0_0.lhsBatch by decide)]
  rfl
theorem outer_lhs_1 (i : S4x512x784.Idx) (q : dot_S4x512x1_S4x784x1_S4x512x784_2_2_1_1_0_0.contr.Idx) :
    (dot_S4x512x1_S4x784x1_S4x512x784_2_2_1_1_0_0.lhsIdx i q 1).val = (i 1).val := by
  unfold DotDims.lhsIdx
  rw [dif_neg (show ¬(1 : Fin S4x512x1.rank) ∈ dot_S4x512x1_S4x784x1_S4x512x784_2_2_1_1_0_0.lhsBatch by decide), dif_pos (show (1 : Fin S4x512x1.rank) ∈ dot_S4x512x1_S4x784x1_S4x512x784_2_2_1_1_0_0.lhsNonContracting by decide)]
  rfl
theorem outer_lhs_2 (i : S4x512x784.Idx) (q : dot_S4x512x1_S4x784x1_S4x512x784_2_2_1_1_0_0.contr.Idx) :
    (dot_S4x512x1_S4x784x1_S4x512x784_2_2_1_1_0_0.lhsIdx i q 2).val = (q ⟨0, by decide⟩).val :=
  dot_S4x512x1_S4x784x1_S4x512x784_2_2_1_1_0_0.lhsIdx_val_of_single rfl i q
theorem outer_rhs_0 (i : S4x512x784.Idx) (q : dot_S4x512x1_S4x784x1_S4x512x784_2_2_1_1_0_0.contr.Idx) :
    (dot_S4x512x1_S4x784x1_S4x512x784_2_2_1_1_0_0.rhsIdx i q 0).val = (i 0).val := by
  unfold DotDims.rhsIdx
  rw [dif_pos (show (0 : Fin S4x784x1.rank) ∈ dot_S4x512x1_S4x784x1_S4x512x784_2_2_1_1_0_0.rhsBatch by decide)]
  rfl
theorem outer_rhs_1 (i : S4x512x784.Idx) (q : dot_S4x512x1_S4x784x1_S4x512x784_2_2_1_1_0_0.contr.Idx) :
    (dot_S4x512x1_S4x784x1_S4x512x784_2_2_1_1_0_0.rhsIdx i q 1).val = (i 2).val := by
  unfold DotDims.rhsIdx
  rw [dif_neg (show ¬(1 : Fin S4x784x1.rank) ∈ dot_S4x512x1_S4x784x1_S4x512x784_2_2_1_1_0_0.rhsBatch by decide), dif_pos (show (1 : Fin S4x784x1.rank) ∈ dot_S4x512x1_S4x784x1_S4x512x784_2_2_1_1_0_0.rhsNonContracting by decide)]
  rfl
theorem outer_rhs_2 (i : S4x512x784.Idx) (q : dot_S4x512x1_S4x784x1_S4x512x784_2_2_1_1_0_0.contr.Idx) :
    (dot_S4x512x1_S4x784x1_S4x512x784_2_2_1_1_0_0.rhsIdx i q 2).val = (q ⟨0, by decide⟩).val :=
  dot_S4x512x1_S4x784x1_S4x512x784_2_2_1_1_0_0.rhsIdx_val_of_single rfl i q

/-! ## The body's stages as functions of whole blocks -/

/-- `A v` on every matrix of the block. -/
def mv (X : FVec Ideal S4x512x784 .f32) (w : FVec Ideal S4x784x1 .f32) : FVec Ideal S4x512x1 .f32 :=
  matmul dot_S4x512x784_S4x784x1_S4x512x1_2_1_1_2_0_0 none X w (constant S4x512x1 .f32 0x00000000#32)

/-- `Aᵀ u` on every matrix of the block. -/
def mtv (X : FVec Ideal S4x512x784 .f32) (u : FVec Ideal S4x512x1 .f32) : FVec Ideal S4x784x1 .f32 :=
  matmul dot_S4x512x784_S4x512x1_S4x784x1_1_1_2_2_0_0 none X u (constant S4x784x1 .f32 0x00000000#32)

/-- Every vector of the block divided by the square root of its sum of squares plus `ε`. -/
def nrm (w : FVec Ideal S4x784x1 .f32) : FVec Ideal S4x784x1 .f32 :=
  divf w (broadcastTo S4x784x1 (sqrt (addf (shapeCast S4x1x1 (multiReduction .add [1] S4x1 (mulf w w) 0x00000000#32 reduces_S4x784x1_S4x1 (.inl rfl) rfl) shapeCasts_S4x1_S4x1x1)
    (broadcast S4x1x1 (Scalar.ofBits .f32 0x3727C5AC#32)))) broadcasts_S4x1x1_S4x784x1)

/-- `A - κ · (A ŵ) ŵᵀ` on every matrix of the block. -/
def sub1 (X : FVec Ideal S4x512x784 .f32) (w : FVec Ideal S4x784x1 .f32) : FVec Ideal S4x512x784 .f32 :=
  subf X (mulf (broadcast S4x512x784 (Scalar.ofBits .f32 0x3F19999A#32))
    (matmul dot_S4x512x1_S4x784x1_S4x512x784_2_2_1_1_0_0 none (mv X w) w (constant S4x512x784 .f32 0x00000000#32)))

/-- The stored value is these stages composed: two sweeps, the scaling, the subtraction. -/
theorem pay_stages (X0 : Vec Ideal S4x512x784 .f32) (X1 : Vec Ideal S4x784x1 .f32) :
    k0_pay1 (F := Ideal) X0 X1
      = sub1 (shapeCast S4x512x784 X0 shapeCasts_S4x512x784_S4x512x784)
          (nrm (mtv (shapeCast S4x512x784 X0 shapeCasts_S4x512x784_S4x512x784) (mv (shapeCast S4x512x784 X0 shapeCasts_S4x512x784_S4x512x784)
            (mtv (shapeCast S4x512x784 X0 shapeCasts_S4x512x784_S4x512x784) (mv (shapeCast S4x512x784 X0 shapeCasts_S4x512x784_S4x512x784) X1))))) := rfl

/-! ## Each stage, matrix by matrix -/

/-- `A v`: entry `c` of vector `b` is row `c` of matrix `b` against start vector `b`. -/
theorem colC_mv (X : FVec Ideal S4x512x784 .f32) (w : FVec Ideal S4x784x1 .f32) (b : Fin 4) :
    colC (mv X w) b = Deflate.apply (rows X b) (col w b) := by
  funext c
  show mv X w (ix3 b c 0) = ∑ n : Fin 784, X (ix3 b c n) * w (ix3 b n 0)
  unfold mv
  simp only [matmul]
  rw [Ideal.matmul_constant_zero_apply, ← Equiv.sum_comp (ValueIdx.contrEquiv1 dot_S4x512x784_S4x784x1_S4x512x1_2_1_1_2_0_0 784 rfl rfl).symm]
  refine Finset.sum_congr rfl fun k _ => ?_
  have hk := ValueIdx.contrEquiv1_symm_val dot_S4x512x784_S4x784x1_S4x512x1_2_1_1_2_0_0 784 rfl rfl k
  have el : dot_S4x512x784_S4x784x1_S4x512x1_2_1_1_2_0_0.lhsIdx (ix3 b c 0) ((ValueIdx.contrEquiv1 dot_S4x512x784_S4x784x1_S4x512x1_2_1_1_2_0_0 784 rfl rfl).symm k) = ix3 b c k := funext fun a => Fin.ext (by
    match a with
    | ⟨0, _⟩ => exact mv_lhs_0 _ _
    | ⟨1, _⟩ => exact mv_lhs_1 _ _
    | ⟨2, _⟩ => exact (mv_lhs_2 _ _).trans hk)
  have er : dot_S4x512x784_S4x784x1_S4x512x1_2_1_1_2_0_0.rhsIdx (ix3 b c 0) ((ValueIdx.contrEquiv1 dot_S4x512x784_S4x784x1_S4x512x1_2_1_1_2_0_0 784 rfl rfl).symm k) = ix3 b k 0 := funext fun a => Fin.ext (by
    match a with
    | ⟨0, _⟩ => exact mv_rhs_0 _ _
    | ⟨1, _⟩ => exact (mv_rhs_1 _ _).trans hk
    | ⟨2, _⟩ => exact mv_rhs_2 _ _)
  rw [el, er]

/-- `Aᵀ u`: entry `n` of vector `b` is column `n` of matrix `b` against vector `b` of `u`. -/
theorem col_mtv (X : FVec Ideal S4x512x784 .f32) (u : FVec Ideal S4x512x1 .f32) (b : Fin 4) :
    col (mtv X u) b = Deflate.applyT (rows X b) (colC u b) := by
  funext n
  show mtv X u (ix3 b n 0) = ∑ c : Fin 512, X (ix3 b c n) * u (ix3 b c 0)
  unfold mtv
  simp only [matmul]
  rw [Ideal.matmul_constant_zero_apply, ← Equiv.sum_comp (ValueIdx.contrEquiv1 dot_S4x512x784_S4x512x1_S4x784x1_1_1_2_2_0_0 512 rfl rfl).symm]
  refine Finset.sum_congr rfl fun k _ => ?_
  have hk := ValueIdx.contrEquiv1_symm_val dot_S4x512x784_S4x512x1_S4x784x1_1_1_2_2_0_0 512 rfl rfl k
  have el : dot_S4x512x784_S4x512x1_S4x784x1_1_1_2_2_0_0.lhsIdx (ix3 b n 0) ((ValueIdx.contrEquiv1 dot_S4x512x784_S4x512x1_S4x784x1_1_1_2_2_0_0 512 rfl rfl).symm k) = ix3 b k n := funext fun a => Fin.ext (by
    match a with
    | ⟨0, _⟩ => exact mtv_lhs_0 _ _
    | ⟨1, _⟩ => exact (mtv_lhs_1 _ _).trans hk
    | ⟨2, _⟩ => exact mtv_lhs_2 _ _)
  have er : dot_S4x512x784_S4x512x1_S4x784x1_1_1_2_2_0_0.rhsIdx (ix3 b n 0) ((ValueIdx.contrEquiv1 dot_S4x512x784_S4x512x1_S4x784x1_1_1_2_2_0_0 512 rfl rfl).symm k) = ix3 b k 0 := funext fun a => Fin.ext (by
    match a with
    | ⟨0, _⟩ => exact mtv_rhs_0 _ _
    | ⟨1, _⟩ => exact (mtv_rhs_1 _ _).trans hk
    | ⟨2, _⟩ => exact mtv_rhs_2 _ _)
  rw [el, er]

/-- The rank-one product contracts an axis of length one: entry `(b, c, n)` is the single term `u (b, c) · w (b, n)`. -/
theorem outer_at (u : FVec Ideal S4x512x1 .f32) (w : FVec Ideal S4x784x1 .f32) (b : Fin 4) (c : Fin 512) (n : Fin 784) :
    matmul dot_S4x512x1_S4x784x1_S4x512x784_2_2_1_1_0_0 none u w (constant S4x512x784 .f32 0x00000000#32) (ix3 b c n) = u (ix3 b c 0) * w (ix3 b n 0) := by
  simp only [matmul]
  rw [Ideal.matmul_constant_zero_apply, ← Equiv.sum_comp (ValueIdx.contrEquiv1 dot_S4x512x1_S4x784x1_S4x512x784_2_2_1_1_0_0 1 rfl rfl).symm, Fin.sum_univ_one]
  have hk := ValueIdx.contrEquiv1_symm_val dot_S4x512x1_S4x784x1_S4x512x784_2_2_1_1_0_0 1 rfl rfl 0
  have el : dot_S4x512x1_S4x784x1_S4x512x784_2_2_1_1_0_0.lhsIdx (ix3 b c n) ((ValueIdx.contrEquiv1 dot_S4x512x1_S4x784x1_S4x512x784_2_2_1_1_0_0 1 rfl rfl).symm 0) = ix3 b c 0 := funext fun a => Fin.ext (by
    match a with
    | ⟨0, _⟩ => exact outer_lhs_0 _ _
    | ⟨1, _⟩ => exact outer_lhs_1 _ _
    | ⟨2, _⟩ => exact (outer_lhs_2 _ _).trans hk)
  have er : dot_S4x512x1_S4x784x1_S4x512x784_2_2_1_1_0_0.rhsIdx (ix3 b c n) ((ValueIdx.contrEquiv1 dot_S4x512x1_S4x784x1_S4x512x784_2_2_1_1_0_0 1 rfl rfl).symm 0) = ix3 b n 0 := funext fun a => Fin.ext (by
    match a with
    | ⟨0, _⟩ => exact outer_rhs_0 _ _
    | ⟨1, _⟩ => exact outer_rhs_1 _ _
    | ⟨2, _⟩ => exact (outer_rhs_2 _ _).trans hk)
  rw [el, er]

/-- The lane sum of the squares of vector `b`: a sum over its 784 entries. -/
theorem sumsq_at (w : FVec Ideal S4x784x1 .f32) (b : Fin 4) :
    multiReduction .add [1] S4x1 (mulf w w) 0x00000000#32 reduces_S4x784x1_S4x1 (.inl rfl) rfl (ix2 b 0)
      = ∑ k : Fin 784, w (ix3 b k 0) * w (ix3 b k 0) := by
  refine (Ideal.multiReduction_add_single (mulf w w) 0x00000000#32 reduces_S4x784x1_S4x1 (.inl rfl) rfl (ix2 b 0)).trans ?_
  refine Finset.sum_congr rfl fun k _ => ?_
  have e : reduces_S4x784x1_S4x1.lift (ix2 b 0) k = ix3 b k 0 := funext fun a => Fin.ext (by
    match a with
    | ⟨0, _⟩ => rfl
    | ⟨1, _⟩ => rfl
    | ⟨2, _⟩ => rfl)
  rw [e]
  rfl

/-- One number per vector, given a trailing unit axis: entry `(b, 0, 0)` is entry `(b, 0)`. -/
theorem cast_at (y : FVec Ideal S4x1 .f32) (b : Fin 4) :
    shapeCast S4x1x1 y shapeCasts_S4x1_S4x1x1 (ix3 b 0 0) = y (ix2 b 0) :=
  shapeCast_apply y shapeCasts_S4x1_S4x1x1 (ix3 b 0 0) (ix2 b 0) (by
    rewrite [Shape.rowMajor_val_two, Shape.rowMajor_val_three]
    show b.val * 1 + 0 = (b.val * 1 + 0) * 1 + 0
    omega)

/-- One number per vector put back on each of its 784 entries: entry `(b, n, 0)` is entry `(b, 0, 0)`. -/
theorem spread_at (y : FVec Ideal S4x1x1 .f32) (b : Fin 4) (n : Fin 784) :
    broadcastTo S4x784x1 y broadcasts_S4x1x1_S4x784x1 (ix3 b n 0) = y (ix3 b 0 0) :=
  broadcastTo_apply y broadcasts_S4x1x1_S4x784x1 (ix3 b n 0) (ix3 b 0 0) (fun a => match a with
    | ⟨0, _⟩ => by show b.val = if (4 : Nat) = 1 then 0 else b.val; rw [if_neg (by decide)]
    | ⟨1, _⟩ => by show 0 = if (1 : Nat) = 1 then 0 else n.val; rw [if_pos rfl]
    | ⟨2, _⟩ => by show 0 = if (1 : Nat) = 1 then 0 else 0; rw [if_pos rfl])

/-- The scaling, vector by vector. -/
theorem col_nrm (w : FVec Ideal S4x784x1 .f32) (b : Fin 4) : col (nrm w) b = Deflate.normalize (col w b) := by
  funext n
  show nrm w (ix3 b n 0) = Ideal.div (w (ix3 b n 0)) (Ideal.sqrt ((∑ k : Fin 784, w (ix3 b k 0) * w (ix3 b k 0)) + Deflate.eps))
  unfold nrm
  rw [divf_apply, spread_at]
  show Ideal.div (w (ix3 b n 0)) (Ideal.sqrt (shapeCast S4x1x1 _ shapeCasts_S4x1_S4x1x1 (ix3 b 0 0) + Ideal.ofBits .f32 0x3727C5AC#32)) = _
  rw [cast_at, sumsq_at]
  rfl

/-- The subtraction, entry by entry. -/
theorem sub1_at (X : FVec Ideal S4x512x784 .f32) (w : FVec Ideal S4x784x1 .f32) (b : Fin 4) (c : Fin 512) (n : Fin 784) :
    sub1 X w (ix3 b c n) = rows X b c n - Deflate.kappa * (colC (mv X w) b c * col w b n) := by
  unfold sub1
  rw [subf_apply, mulf_apply, outer_at]
  rfl

/-! ## The stored block -/

/-- What the body stores is `deflate` on each of the block's four matrices. -/
theorem pay_eq (X0 : Vec Ideal S4x512x784 .f32) (X1 : Vec Ideal S4x784x1 .f32) :
    k0_pay1 (F := Ideal) X0 X1 = batched X0 X1 := by
  funext j
  obtain ⟨b, c, n, rfl⟩ : ∃ (b : Fin 4) (c : Fin 512) (n : Fin 784), j = ix3 b c n := ⟨j 0, j 1, j 2, eq_ix3 j⟩
  rw [pay_stages, shapeCast_self, sub1_at, colC_mv, col_nrm, col_mtv, colC_mv, col_mtv, colC_mv, batched_ix3]
  rfl

end Cert.KernelIdeal.Block

end
-- ==== Proof.KernelArray.lean ====
/-
  From blocks to the whole array.

  Grid point `t` of the sixteen works on matrices `4t, …, 4t + 3`: the block of each of the three windows at `t` starts at
  first coordinate `4t` and is whole along the other two axes. What the body stores depends on its block alone, matrix by
  matrix (`deflate` of matrix `b` and start vector `b` of the block), and matrix `b` of block `t` is matrix `4t + b` of the
  array; so point `t` writes back block `t` of `batched` of the whole arrays. The sixteen blocks tile the sixty-four
  matrices (matrix `i` lies in block `i / 4`), so the result array ends as `batched` of the first argument read as
  64 × 512 × 784 and of the second argument.
-/
import proofs.«181099_j27247272526218_1_alg».proof.Proof.Gen.KernelIdeal.Value
import proofs.«181099_j27247272526218_1_alg».proof.Proof.KernelBlock
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Deflate
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The three windows' block indices at point `t`: `(t, 0, 0)` each. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Matrix `b` of the first window's block at `t` is matrix `4t + b` of its array. -/
theorem blockA_at (c : Dev nD) (t : Fin cfg0.N) (b : Fin 4) (r : Fin 512) (n : Fin 784) (b' : Fin 64) (hb : b'.val = 4 * t.val + b.val) :
    (iblk m c 0 t : Vec Ideal S4x512x784 .f32) (ix3 b r n) = (V m c main_v0 : S64x512x784.Idx → EReal) (ix3 b' r n) := by
  obtain ⟨e0, e1, e2, -⟩ := index_facts t
  unfold iblk
  rw [View.read_apply]
  show (V m c main_v0 : S64x512x784.Idx → EReal) _ = (V m c main_v0 : S64x512x784.Idx → EReal) _
  refine congrArg (V m c main_v0 : S64x512x784.Idx → EReal) (funext fun a => Fin.ext ?_)
  match a with
  | ⟨0, _⟩ => show win0_0.index t (0 : Fin 3) * 4 + 1 * b.val = b'.val; omega
  | ⟨1, _⟩ => show win0_0.index t (1 : Fin 3) * 512 + 1 * r.val = r.val; omega
  | ⟨2, _⟩ => show win0_0.index t (2 : Fin 3) * 784 + 1 * n.val = n.val; omega

/-- Start vector `b` of the second window's block at `t` is start vector `4t + b` of its array. -/
theorem blockV_at (c : Dev nD) (t : Fin cfg0.N) (b : Fin 4) (n : Fin 784) (b' : Fin 64) (hb : b'.val = 4 * t.val + b.val) :
    (iblk m c 1 t : Vec Ideal S4x784x1 .f32) (ix3 b n 0) = (V m c main_arg1 : S64x784x1.Idx → EReal) (ix3 b' n 0) := by
  obtain ⟨-, -, -, e0, e1, e2, -⟩ := index_facts t
  unfold iblk
  rw [View.read_apply]
  show (V m c main_arg1 : S64x784x1.Idx → EReal) _ = (V m c main_arg1 : S64x784x1.Idx → EReal) _
  refine congrArg (V m c main_arg1 : S64x784x1.Idx → EReal) (funext fun a => Fin.ext ?_)
  match a with
  | ⟨0, _⟩ => show win0_1.index t (0 : Fin 3) * 4 + 1 * b.val = b'.val; omega
  | ⟨1, _⟩ => show win0_1.index t (1 : Fin 3) * 784 + 1 * n.val = n.val; omega
  | ⟨2, _⟩ => show win0_1.index t (2 : Fin 3) * 1 + 1 * 0 = 0; omega

/-- `batched` of the input blocks at `t` is block `t` of `batched` of the whole arrays. -/
theorem block_eq (c : Dev nD) (t : Fin cfg0.N) (j : S4x512x784.Idx) :
    batched (B := 4) (iblk m c 0 t) (iblk m c 1 t) j
      = batched (B := 64) (V m c main_v0) (V m c main_arg1) (((cfg0.win 2).blk t).view.emb j) := by
  obtain ⟨b, r, n, rfl⟩ : ∃ (b : Fin 4) (r : Fin 512) (n : Fin 784), j = ix3 b r n := ⟨j 0, j 1, j 2, eq_ix3 j⟩
  obtain ⟨-, -, -, -, -, -, e0, e1, e2⟩ := index_facts t
  have hN : cfg0.N = 16 := N_0
  have hb : 4 * t.val + b.val < 64 := by have := t.isLt; have := b.isLt; omega
  have hemb : ((cfg0.win 2).blk t).view.emb (ix3 b r n) = ix3 (⟨4 * t.val + b.val, hb⟩ : Fin 64) r n := funext fun a => Fin.ext (by
    match a with
    | ⟨0, _⟩ => show win0_2.index t (0 : Fin 3) * 4 + 1 * b.val = 4 * t.val + b.val; omega
    | ⟨1, _⟩ => show win0_2.index t (1 : Fin 3) * 512 + 1 * r.val = r.val; omega
    | ⟨2, _⟩ => show win0_2.index t (2 : Fin 3) * 784 + 1 * n.val = n.val; omega)
  rw [hemb]
  exact batched_congr (B := 4) (B' := 64) (iblk m c 0 t) (iblk m c 1 t) (V m c main_v0) (V m c main_arg1) b ⟨4 * t.val + b.val, hb⟩ r n
    (fun r n => blockA_at m c t b r n _ rfl) (fun n => blockV_at m c t b n _ rfl)

/-- What point `t` writes back is block `t` of `batched` of the arrays as the region finds them. -/
theorem flushed_eq (c : Dev nD) (t : Fin cfg0.N) :
    (dats m 0 c).flushed 2 t = ((cfg0.win 2).blk t).view.read (Elt Ideal) (batched (B := 64) (V m c main_v0) (V m c main_arg1)) := by
  rw [flushed2]
  unfold out0_2
  rw [View.canon_unit_zero hz]
  simp only [View.ld_unit_zero (S := S4x512x784) hz, View.ld_unit_zero (S := S4x784x1) hz]
  rw [Block.pay_eq (iblk m c 0 t) (iblk m c 1 t)]
  funext j
  exact block_eq m c t j

/-- An index of the array is in point `t`'s block iff each coordinate is in the block's range on its axis. -/
theorem mem_blk (t : Fin cfg0.N) (i : S64x512x784.Idx) :
    i ∈ ((cfg0.win 2).blk t).view.set ↔ ∀ a : Fin 3, win0_2.index t a * S4x512x784.size a ≤ (i a).val ∧ (i a).val < win0_2.index t a * S4x512x784.size a + S4x512x784.size a := by
  show i ∈ ((View.whole main_v1).slice (win0_2.rect t)).set ↔ _
  rw [View.set_slice_whole, Rect.mem_set_unit]
  exact Iff.rfl

/-- Matrix `i` lies in the block of point `i / 4`. -/
theorem cover (i : S64x512x784.Idx) : ∃ t : Fin cfg0.N, (cfg0.win 2).flush t = true ∧ i ∈ ((cfg0.win 2).blk t).view.set := by
  have h0 : (i 0).val < 64 := (i 0).isLt
  have h1 : (i 1).val < 512 := (i 1).isLt
  have h2 : (i 2).val < 784 := (i 2).isLt
  have hN : cfg0.N = 16 := N_0
  have ht : (i 0).val / 4 < cfg0.N := by rw [hN]; omega
  obtain ⟨-, -, -, -, -, -, e0, e1, e2⟩ := index_facts ⟨(i 0).val / 4, ht⟩
  have e0' : win0_2.index ⟨(i 0).val / 4, ht⟩ (0 : Fin 3) = (i 0).val / 4 := e0
  refine ⟨⟨(i 0).val / 4, ht⟩, flush0_2 _, ?_⟩
  rw [mem_blk]
  intro a
  match a with
  | ⟨0, _⟩ => show win0_2.index ⟨(i 0).val / 4, ht⟩ (0 : Fin 3) * 4 ≤ (i 0).val ∧ (i 0).val < win0_2.index ⟨(i 0).val / 4, ht⟩ (0 : Fin 3) * 4 + 4; omega
  | ⟨1, _⟩ => show win0_2.index ⟨(i 0).val / 4, ht⟩ (1 : Fin 3) * 512 ≤ (i 1).val ∧ (i 1).val < win0_2.index ⟨(i 0).val / 4, ht⟩ (1 : Fin 3) * 512 + 512; omega
  | ⟨2, _⟩ => show win0_2.index ⟨(i 0).val / 4, ht⟩ (2 : Fin 3) * 784 ≤ (i 2).val ∧ (i 2).val < win0_2.index ⟨(i 0).val / 4, ht⟩ (2 : Fin 3) * 784 + 784; omega

/-- The result array after the run. -/
theorem final (c : Dev nD) : (dats m 0 c).arrAt 2 cfg0.N = batched (B := 64) (V m c main_v0) (V m c main_arg1) :=
  (dats m 0 c).arrAt_eq_of_cover 2 (batched (B := 64) (V m c main_v0) (V m c main_arg1)) (fun t _ => flushed_eq m c t) cover

/-- The first window's array as the region finds it: the first argument read as 64 × 512 × 784. -/
theorem V_main_v0 (c : Dev nD) :
    (V m c main_v0 : S64x512x784.Idx → EReal) = shapeCast S64x512x784 (m ((c : Thread nD τ).loc main_arg0)) shapeCasts_S64x512x28x28_S64x512x784 := by
  dsimp only [Gen.V, Gen.hostOps0]
  after_results
  rfl

/-- The run: the result array at `batched` of the arguments, the arguments unchanged. -/
theorem run : θ_run defs (onTc (τ := τ) (main (F := Ideal))) ⟨m, fun _ => 0, ρ⟩ fun r => ∀ c : Dev nD,
      r.2.mem ((c : Thread nD τ).loc main_v1)
        = batched (B := 64) (shapeCast S64x512x784 (m ((c : Thread nD τ).loc main_arg0)) shapeCasts_S64x512x28x28_S64x512x784) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_v0, V_main_arg1])), (h c).2⟩)
    (run_blocks m ρ)

end Cert.KernelIdeal.Whole

end
-- ==== Proof.RefBatch.lean ====
/-
  The reference on a batch of sixty-four matrices.

  Each of its matrix products keeps the first coordinate and contracts one axis, so at the extended reals stage by stage
  and matrix by matrix: `A v`, `Aᵀ u`, the same pair again, the sum of squares of each vector (from the initial value zero)
  with `ε` added, the square root, the division, `A ŵ`, the rank-one product over an axis of length one (a single term),
  the product with `κ` and the subtraction. So entry `(b, c, n)` of its result is `deflate` of matrix `b` and start vector
  `b` at `(c, n)`.
-/
import proofs.«181099_j27247272526218_1_alg».proof.Proof.Gen.ReferenceIdeal.Read
import proofs.«181099_j27247272526218_1_alg».proof.Proof.Deflate
import Idealize.ShloMosaic.PureOps.Ideal.Laws
import Idealize.ShloMosaic.Lib.ValueIdx

noncomputable section

namespace Cert.ReferenceIdeal.Batch

open Cert.ReferenceIdeal Cert.ReferenceIdeal.Read Idealize.ShloMosaic Idealize.ShloMosaic.ValueIdx Cert.Deflate

variable (x0 : (⟨S64x512x28x28, .f32⟩ : BufTy).Contents (Elt Ideal)) (x1 : (⟨S64x784x1, .f32⟩ : BufTy).Contents (Elt Ideal))

/-- Matrix `b` of the batch, the argument read as 64 matrices of 512 × 784. -/
abbrev M (b : Fin 64) : Fin 512 → Fin 784 → EReal := rows (val_main_v0 (F := Ideal) x0) b

/-- Start vector `b`. -/
abbrev s (b : Fin 64) : Fin 784 → EReal := col x1 b

/-- `A v`. -/
theorem v1_at (b : Fin 64) (c : Fin 512) :
    val_main_v1 (F := Ideal) x0 x1 (ix3 b c 0) = Deflate.apply (M x0 b) (s x1 b) c := by
  rw [val_main_v1_apply]
  show _ = ∑ n : Fin 784, val_main_v0 (F := Ideal) x0 (ix3 b c n) * x1 (ix3 b n 0)
  refine Finset.sum_congr rfl fun k _ => ?_
  have el : lidx_main_v1 (ix3 b c 0) k = ix3 b c k := funext fun a => by match a with | ⟨0, _⟩ => rfl | ⟨1, _⟩ => rfl | ⟨2, _⟩ => rfl
  have er : ridx_main_v1 (ix3 b c 0) k = ix3 b k 0 := funext fun a => by match a with | ⟨0, _⟩ => rfl | ⟨1, _⟩ => rfl | ⟨2, _⟩ => rfl
  rw [el, er]

/-- `Aᵀ (A v)`: one sweep. -/
theorem v2_at (b : Fin 64) (n : Fin 784) :
    val_main_v2 (F := Ideal) x0 x1 (ix3 b n 0) = sweep (M x0 b) (s x1 b) n := by
  rw [val_main_v2_apply]
  show _ = ∑ c : Fin 512, val_main_v0 (F := Ideal) x0 (ix3 b c n) * Deflate.apply (M x0 b) (s x1 b) c
  refine Finset.sum_congr rfl fun k _ => ?_
  have el : lidx_main_v2 (ix3 b n 0) k = ix3 b k n := funext fun a => by match a with | ⟨0, _⟩ => rfl | ⟨1, _⟩ => rfl | ⟨2, _⟩ => rfl
  have er : ridx_main_v2 (ix3 b n 0) k = ix3 b k 0 := funext fun a => by match a with | ⟨0, _⟩ => rfl | ⟨1, _⟩ => rfl | ⟨2, _⟩ => rfl
  rw [el, er, v1_at]

/-- `A` applied to the first sweep. -/
theorem v3_at (b : Fin 64) (c : Fin 512) :
    val_main_v3 (F := Ideal) x0 x1 (ix3 b c 0) = Deflate.apply (M x0 b) (sweep (M x0 b) (s x1 b)) c := by
  rw [val_main_v3_apply]
  show _ = ∑ n : Fin 784, val_main_v0 (F := Ideal) x0 (ix3 b c n) * sweep (M x0 b) (s x1 b) n
  refine Finset.sum_congr rfl fun k _ => ?_
  have el : lidx_main_v3 (ix3 b c 0) k = ix3 b c k := funext fun a => by match a with | ⟨0, _⟩ => rfl | ⟨1, _⟩ => rfl | ⟨2, _⟩ => rfl
  have er : ridx_main_v3 (ix3 b c 0) k = ix3 b k 0 := funext fun a => by match a with | ⟨0, _⟩ => rfl | ⟨1, _⟩ => rfl | ⟨2, _⟩ => rfl
  rw [el, er, v2_at]

/-- The second sweep. -/
theorem v4_at (b : Fin 64) (n : Fin 784) :
    val_main_v4 (F := Ideal) x0 x1 (ix3 b n 0) = sweep (M x0 b) (sweep (M x0 b) (s x1 b)) n := by
  rw [val_main_v4_apply]
  show _ = ∑ c : Fin 512, val_main_v0 (F := Ideal) x0 (ix3 b c n) * Deflate.apply (M x0 b) (sweep (M x0 b) (s x1 b)) c
  refine Finset.sum_congr rfl fun k _ => ?_
  have el : lidx_main_v4 (ix3 b n 0) k = ix3 b k n := funext fun a => by match a with | ⟨0, _⟩ => rfl | ⟨1, _⟩ => rfl | ⟨2, _⟩ => rfl
  have er : ridx_main_v4 (ix3 b n 0) k = ix3 b k 0 := funext fun a => by match a with | ⟨0, _⟩ => rfl | ⟨1, _⟩ => rfl | ⟨2, _⟩ => rfl
  rw [el, er, v3_at]

/-- The square root of the sum of squares of vector `b` plus `ε`, as it sits on every entry of that vector: the sum
    starts from the initial value zero, which adds nothing. -/
theorem v11_at (b : Fin 64) (n : Fin 784) :
    val_main_v11 (F := Ideal) x0 x1 (ix3 b n 0)
      = Ideal.sqrt ((∑ k : Fin 784, sweep (M x0 b) (sweep (M x0 b) (s x1 b)) k * sweep (M x0 b) (sweep (M x0 b) (s x1 b)) k) + Deflate.eps) := by
  have e11 : idx_main_v11 (ix3 b n 0) = ix3 b 0 0 := funext fun a => by match a with | ⟨0, _⟩ => rfl | ⟨1, _⟩ => rfl | ⟨2, _⟩ => rfl
  have e7 : idx_main_v7 (ix3 b (0 : Fin 1) (0 : Fin 1)) = ix2 b 0 := funext fun a => by match a with | ⟨0, _⟩ => rfl | ⟨1, _⟩ => rfl
  have e6 : ∀ k : Fin 784, idx_main_v6 (ix2 b (0 : Fin 1)) k = ix3 b k 0 := fun k => funext fun a => by match a with | ⟨0, _⟩ => rfl | ⟨1, _⟩ => rfl | ⟨2, _⟩ => rfl
  rw [val_main_v11_apply, e11, val_main_v10_apply, val_main_v9_apply, val_main_v7_apply, e7, val_main_v6_apply, val_main_v8_apply,
    val_main_cst_0_apply, val_main_cst_apply]
  simp only [e6, val_main_v5_apply, v4_at, Ideal.hostUnary_sqrt_def, Ideal.addf_def, Ideal.mulf_def, Ideal.ofBits_def, Ideal.ofBits_zero_f32, zero_add]
  rfl

/-- The scaled vector `ŵ`. -/
theorem v12_at (b : Fin 64) (n : Fin 784) :
    val_main_v12 (F := Ideal) x0 x1 (ix3 b n 0) = direction (M x0 b) (s x1 b) n := by
  rw [val_main_v12_apply, v4_at, v11_at]
  rfl

/-- `A ŵ`. -/
theorem v13_at (b : Fin 64) (c : Fin 512) :
    val_main_v13 (F := Ideal) x0 x1 (ix3 b c 0) = Deflate.apply (M x0 b) (direction (M x0 b) (s x1 b)) c := by
  rw [val_main_v13_apply]
  show _ = ∑ n : Fin 784, val_main_v0 (F := Ideal) x0 (ix3 b c n) * direction (M x0 b) (s x1 b) n
  refine Finset.sum_congr rfl fun k _ => ?_
  have el : lidx_main_v13 (ix3 b c 0) k = ix3 b c k := funext fun a => by match a with | ⟨0, _⟩ => rfl | ⟨1, _⟩ => rfl | ⟨2, _⟩ => rfl
  have er : ridx_main_v13 (ix3 b c 0) k = ix3 b k 0 := funext fun a => by match a with | ⟨0, _⟩ => rfl | ⟨1, _⟩ => rfl | ⟨2, _⟩ => rfl
  rw [el, er, v12_at]

/-- The result, entry by entry. -/
theorem v17_at (b : Fin 64) (c : Fin 512) (n : Fin 784) :
    val_main_v17 (F := Ideal) x0 x1 (ix3 b c n) = deflate (M x0 b) (s x1 b) c n := by
  have el : lidx_main_v14 (ix3 b c n) 0 = ix3 b c 0 := funext fun a => by match a with | ⟨0, _⟩ => rfl | ⟨1, _⟩ => rfl | ⟨2, _⟩ => rfl
  have er : ridx_main_v14 (ix3 b c n) 0 = ix3 b n 0 := funext fun a => by match a with | ⟨0, _⟩ => rfl | ⟨1, _⟩ => rfl | ⟨2, _⟩ => rfl
  rw [val_main_v17_apply, val_main_v16_apply, val_main_v15_apply, val_main_cst_1_apply, val_main_v14_apply, Fin.sum_univ_one, el, er,
    v13_at, v12_at]
  rfl

/-- The reference's result is `deflate` on each of the sixty-four matrices. -/
theorem result_eq : val_main_v17 (F := Ideal) x0 x1 = batched (val_main_v0 (F := Ideal) x0) x1 := by
  funext i
  obtain ⟨b, c, n, rfl⟩ : ∃ (b : Fin 64) (c : Fin 512) (n : Fin 784), i = ix3 b c n := ⟨i 0, i 1, i 2, eq_ix3 i⟩
  exact v17_at x0 x1 b c n

end Cert.ReferenceIdeal.Batch

end
-- ==== Proof.lean ====
/-
  The five claims.

  Both idealized programs compute, for each of sixty-four 512 × 784 matrices `A` with its start vector `v`: two sweeps
  `v ↦ Aᵀ (A v)` giving `w`, the scaled vector `ŵ = w / sqrt (∑ₖ wₖ² + ε)`, and `A - κ · (A ŵ) ŵᵀ` (`Cert.Deflate.deflate`).
  The kernel does it four matrices per grid point over sixteen points, with matrix products into a zero accumulator
  and a lane sum; the reference does it on all sixty-four at once with `dot_general` and a `reduce` from the initial
  value zero. On the extended reals each product is the same finite sum over the same index, the zero accumulator and the
  zero initial value add nothing, the rank-one product contracts an axis of length one, the square root and the division
  are one function on both sides, and `ε`, `κ` are the same words on both sides. No sum is regrouped and no factor
  is moved across a sum, so the equality holds at the infinities as well and the precondition is not used.

  The first matrix array is the first argument read as 64 × 512 × 784 on both sides (the same reshape). The two frames of
  the kernels are the runs that come with their programs; the reference's frame is its run with the result dropped; the
  idealization rewrote nothing, so its claim is `True`.
-/
import proofs.«181099_j27247272526218_1_alg».proof.Defs
import proofs.«181099_j27247272526218_1_alg».proof.Proof.Gen.Kernel
import proofs.«181099_j27247272526218_1_alg».proof.Proof.Gen.Kernel.Skeleton
import proofs.«181099_j27247272526218_1_alg».proof.Proof.Gen.Kernel.Launch
import proofs.«181099_j27247272526218_1_alg».proof.Proof.Gen.Kernel.Points
import proofs.«181099_j27247272526218_1_alg».proof.Proof.Gen.Kernel.Frame
import proofs.«181099_j27247272526218_1_alg».proof.Proof.Gen.KernelIdeal
import proofs.«181099_j27247272526218_1_alg».proof.Proof.Gen.KernelIdeal.Skeleton
import proofs.«181099_j27247272526218_1_alg».proof.Proof.Gen.KernelIdeal.Launch
import proofs.«181099_j27247272526218_1_alg».proof.Proof.Gen.KernelIdeal.Points
import proofs.«181099_j27247272526218_1_alg».proof.Proof.Gen.KernelIdeal.Frame
import proofs.«181099_j27247272526218_1_alg».proof.Proof.Gen.ReferenceIdeal
import proofs.«181099_j27247272526218_1_alg».proof.Proof.Gen.Pre_finite_inputs
import proofs.«181099_j27247272526218_1_alg».proof.Proof.Gen.KernelIdeal.Value
import proofs.«181099_j27247272526218_1_alg».proof.Proof.Gen.ReferenceIdeal.Run
import proofs.«181099_j27247272526218_1_alg».proof.Proof.Gen.ReferenceIdeal.Read
import proofs.«181099_j27247272526218_1_alg».proof.Proof.KernelArray
import proofs.«181099_j27247272526218_1_alg».proof.Proof.RefBatch
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are `deflate` on each of the sixty-four matrices of the first argument read as 64 × 512 × 784, each with
    its start vector from the second argument: the kernel's array block by block, the reference's stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Batch.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
